-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x64 : Shape := ⟨2, ![32768, 64]⟩
abbrev S8192x64 : Shape := ⟨2, ![8192, 64]⟩
abbrev S8192 : Shape := ⟨1, ![8192]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S32768x64 .f32) (main_arg1 : FVec F S8192x64 .f32) (main_arg2 : FVec F S8192 .f32) : IVec S_ 1 :=
  let main_v0 : FVec F S32768x64 .f32 := Host.absf main_arg0
  let main_cst : FVec F S_ .f32 := constant S_ .f32 0x7F800000#32
  let main_v1 : FVec F S32768x64 .f32 := broadcastInDim S32768x64 ![] bcast_S_S32768x64 main_cst
  let main_v2 : IVec S32768x64 1 := cmpf .olt main_v0 main_v1
  let main_c : IVec S_ 1 := constantI S_ 1 1#1
  let main_v3 : IVec S_ 1 := (fun x v => Host.reduce IntOp.andi x v reducesTo_S32768x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  main_v13
-- ==== Kernel.lean ====
abbrev S32768x64 : Shape := ⟨2, ![32768, 64]⟩
abbrev S8192x64 : Shape := ⟨2, ![8192, 64]⟩
abbrev S8192 : Shape := ⟨1, ![8192]⟩
abbrev S_ : Shape := ⟨0, ![]⟩
abbrev S1x8192 : Shape := ⟨2, ![1, 8192]⟩
abbrev S32768x1 : Shape := ⟨2, ![32768, 1]⟩
abbrev S2048x64 : Shape := ⟨2, ![2048, 64]⟩
abbrev S1024x64 : Shape := ⟨2, ![1024, 64]⟩
abbrev S1x1024 : Shape := ⟨2, ![1, 1024]⟩
abbrev S2048x1 : Shape := ⟨2, ![2048, 1]⟩
abbrev S64x1024 : Shape := ⟨2, ![64, 1024]⟩
abbrev S2048x1024 : Shape := ⟨2, ![2048, 1024]⟩
abbrev S2048 : Shape := ⟨1, ![2048]⟩

abbrev nBuf : Space → Nat
  | .hbm => 18
  | .vmem => 9
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S1x8192, .f32⟩
  | .hbm, ⟨8, _⟩ => ⟨S32768x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S1024x64, .f32⟩
  | .local _ .vmem, ⟨3, _⟩ => ⟨S1024x64, .f32⟩
  | .local _ .vmem, ⟨4, _⟩ => ⟨S1x1024, .f32⟩
  | .local _ .vmem, ⟨5, _⟩ => ⟨S1x1024, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_12 : BitVec 32 := 0#32
  let v24 : BitVec 1 := Scalar.cmpi .ne v23 c0_i32_12
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S8192x64_S8192_d1 : S8192x64.ReducesTo [1] S8192
  h_S_ : 0 < S_.numel
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x64_S2048x64_0_0 : ∀ a, (![0, 0] : Fin 2 → Nat) a + S2048x64.size a ≤ S2048x64.size a
  h_S2048x64 : 0 < S2048x64.numel
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  transposes_S1024x64_p1_0_S64x1024 : S1024x64.Transposes [1, 0] S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  reduces_S2048x64_S2048 : S2048x64.Reduces [1] S2048
  reducesTo_S32768x1_S_d0_1 : S32768x1.ReducesTo [0, 1] S_
  reducesTo_S8192_S_d0 : S8192.ReducesTo [0] S_
  dot_S2048x64_S64x1024_S2048x1024_1_0_0_1_n_n_wf : DotDims.WF S2048x64 S64x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S32768x64.size a
  hwx0_0 : ∀ i : grid0.Coords, EltTy.bits .f32 = 32 ∨ (Rect.block (s := S32768x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S32768x1.size a
  hwx0_3 : ∀ i : grid0.Coords, EltTy.bits .f32 = 32 ∨ (Rect.block (s := S32768x1) S2048x1.size (cc0_transform_3 i) (hinb0_3 i)).WholeWords (EltTy.packing .f32)

variable [Facts₀]

def dot_S2048x64_S64x1024_S2048x1024_1_0_0_1_n_n : DotDims S2048x64 S64x1024 S2048x1024 where
  lhsContracting := [1]
  rhsContracting := [0]
  lhsNonContracting := [0]
  rhsNonContracting := [1]
  lhsBatch := []
  rhsBatch := []
  wf := dot_S2048x64_S64x1024_S2048x1024_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x64 : Shape := ⟨2, ![32768, 64]⟩
abbrev S8192x64 : Shape := ⟨2, ![8192, 64]⟩
abbrev S8192 : Shape := ⟨1, ![8192]⟩
abbrev S_ : Shape := ⟨0, ![]⟩
abbrev S32768 : Shape := ⟨1, ![32768]⟩
abbrev S32768x1 : Shape := ⟨2, ![32768, 1]⟩
abbrev S1x8192 : Shape := ⟨2, ![1, 8192]⟩
abbrev S32768x8192 : Shape := ⟨2, ![32768, 8192]⟩
abbrev S64x8192 : Shape := ⟨2, ![64, 8192]⟩

abbrev nBuf : Space → Nat
  | .hbm => 34
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S8192x64, .f32⟩
  | .hbm, ⟨2, _⟩ => ⟨S8192, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S8192x64, .f32⟩
  | .hbm, ⟨8, _⟩ => ⟨S_, .f32⟩
  | .hbm, ⟨9, _⟩ => ⟨S8192, .f32⟩
  | .hbm, ⟨10, _⟩ => ⟨S1x8192, .f32⟩
  | .hbm, ⟨11, _⟩ => ⟨S32768x8192, .f32⟩
  | .hbm, ⟨12, _⟩ => ⟨S32768x8192, .f32⟩
  | .hbm, ⟨13, _⟩ => ⟨S32768x8192, .f32⟩
  | .hbm, ⟨14, _⟩ => ⟨S64x8192, .f32⟩
  | .hbm, ⟨15, _⟩ => ⟨S32768x8192, .f32⟩
  | .hbm, ⟨16, _⟩ => ⟨S_, .f32⟩
  | .hbm, ⟨17, _⟩ => ⟨S32768x8192, .f32⟩
  | .hbm, ⟨18, _⟩ => ⟨S32768x8192, .f32⟩
  | .hbm, ⟨19, _⟩ => ⟨S32768x8192, .f32⟩
  | .hbm, ⟨20, _⟩ => ⟨S1x8192, .f32⟩
  | .hbm, ⟨21, _⟩ => ⟨S32768x8192, .f32⟩
  | .hbm, ⟨22, _⟩ => ⟨S32768x8192, .f32⟩
  | .hbm, ⟨23, _⟩ => ⟨S_, .f32⟩
  | .hbm, ⟨24, _⟩ => ⟨S32768, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S32768_S32768x1_0 : S32768.BroadcastsInDim S32768x1 (![0] : Fin 1 → Fin S32768x1.rank)
  reducesTo_S8192x64_S8192_d1 : S8192x64.ReducesTo [1] S8192
  bcast_S8192_S1x8192_1 : S8192.BroadcastsInDim S1x8192 (![1] : Fin 1 → Fin S1x8192.rank)
  bcast_S32768x1_S32768x8192_0_1 : S32768x1.BroadcastsInDim S32768x8192 (![0, 1] : Fin 2 → Fin S32768x8192.rank)
  bcast_S1x8192_S32768x8192_0_1 : S1x8192.BroadcastsInDim S32768x8192 (![0, 1] : Fin 2 → Fin S32768x8192.rank)
  transposes_S8192x64_S64x8192_1_0 : S8192x64.Transposes [1, 0] S64x8192
  bcast_S_S32768x8192 : S_.BroadcastsInDim S32768x8192 (![] : Fin 0 → Fin S32768x8192.rank)
  reducesTo_S32768x8192_S32768_d1 : S32768x8192.ReducesTo [1] S32768
  reducesTo_S32768_S_d0 : S32768.ReducesTo [0] S_
  reducesTo_S8192_S_d0 : S8192.ReducesTo [0] S_
  dot_S32768x64_S64x8192_S32768x8192_1_0_0_1_n_n_wf : DotDims.WF S32768x64 S64x8192 S32768x8192 [1] [0] [0] [1] [] []

variable [Facts₀]

def dot_S32768x64_S64x8192_S32768x8192_1_0_0_1_n_n : DotDims S32768x64 S64x8192 S32768x8192 where
  lhsContracting := [1]
  rhsContracting := [0]
  lhsNonContracting := [0]
  rhsNonContracting := [1]
  lhsBatch := []
  rhsBatch := []
  wf := dot_S32768x64_S64x8192_S32768x8192_1_0_0_1_n_n_wf

class Facts : Prop extends Facts₀ where

variable [Facts]
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.LibRowMin.lean ====
/-
  Minima over the extended reals, for reductions that start from +infinity.

  A fold of `min` from the top element over a finite set is the set's infimum; the f32 pattern of +infinity denotes
  the top element; so a row minimum of an [a, b] vector started from +infinity is, at row n, the infimum of that
  row's entries. And a real constant moves through a finite infimum: (inf f) + c = inf (f + c), the empty infimum
  included, because adding c is monotone and keeps the top element.
-/
import Idealize.ShloMosaic.Lib.Pipeline.Value
import Idealize.ShloMosaic.Lib.ValueIdx
import Idealize.ShloMosaic.PureOps.Ideal.Laws
import Idealize.ShloMosaic.PureOps.Reduce

noncomputable section

namespace Cert.LibRowMin

open Idealize.ShloMosaic Idealize.ShloMosaic.ValueIdx

/-- The f32 pattern of +infinity denotes the top element. -/
theorem ofBits_inf_f32 : Ideal.ofBits .f32 0x7F800000#32 = (⊤ : EReal) := by
  simp [Ideal.ofBits, Ideal.ieee]

/-- A fold of `min` from the top element is the infimum. -/
theorem fold_min_top {ι : Type*} (s : Finset ι) (f : ι → EReal) : s.fold min ⊤ f = s.inf f := by
  classical
  induction s using Finset.induction_on with
  | empty => simp
  | insert a s ha ih => rw [Finset.fold_insert ha, Finset.inf_insert, ih]

/-- Adding a real constant commutes with a finite infimum (the empty one included: top plus a real is top). -/
theorem inf_add_coe {ι : Type*} (s : Finset ι) (f : ι → EReal) (c : ℝ) :
    s.inf f + (c : EReal) = s.inf fun j => f j + (c : EReal) :=
  Finset.comp_inf_eq_inf_comp (fun a : EReal => a + (c : EReal))
    (fun a b => (Monotone.map_min (f := fun a : EReal => a + (c : EReal)) fun _ _ h => add_le_add h le_rfl))
    (EReal.top_add_coe c)

variable {a b : ℕ}

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

/-- A row minimum of an f32 [a, b] vector started from +infinity is, at row `n`, the infimum of that row's entries. -/
theorem rowmin_apply (src : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (n : Fin a) :
    multiReduction .minimumf [1] ⟨1, ![a]⟩ src 0x7F800000#32 h hφ hacc (ix1 n)
      = (Finset.univ : Finset (Fin b)).inf fun k => src (ix2 n k) := by
  refine (multiReduction_minimumf_eq_fold src _ h hφ hacc (ix1 n)).trans ?_
  refine (h.fold_filter_drop_single _ _ src (ix1 n)).trans ?_
  have e : (src ∘ h.lift (ix1 n)) = fun k => src (ix2 n k) :=
    funext fun k => congrArg src (lift_row h n k)
  rw [e]
  show (Finset.univ : Finset (Fin b)).fold min (Ideal.ofBits .f32 0x7F800000#32) _ = _
  rw [ofBits_inf_f32]
  exact fold_min_top _ _

end Cert.LibRowMin

end
-- ==== Proof.Spec.lean ====
/-
  The semi-dual transport loss of points x_R (R < 32768) and y_j (j < 8192) in 64 dimensions with a dual vector psi:

      mean_R  min_j ( |x_R - y_j|^2 - psi_j )  +  mean_j psi_j ,

  in the two arrangements the two programs compute, as functions of the argument arrays over the extended reals.

  One arrangement expands the square entry by entry: the cost of the pair (R, j) is
  (|x_R|^2 + |y_j|^2) - 2 <x_R, y_j> - psi_j, and a row's value is the minimum of its costs (`rcost`, `rrow`).
  The other keeps the row constant |x_R|^2 out of the minimum and carries the factor -2 on x inside the inner product:
  the pair's cost is <(-2) x_R, y_j> + (|y_j|^2 - psi_j), and a row's value is the minimum of these plus |x_R|^2
  (`kcost`, `krow`).

  On real entries the two rows agree (`krow_eq_rrow`): adding a real constant commutes with a finite minimum
  (x ↦ x + c is monotone and keeps the top element), and entry by entry the two costs differ by
  exactly |x_R|^2, by distributing -2 over the inner product's sum (`cost_eq`). Both steps fail at infinite entries
  (a sum of opposite infinities, a product of zero and an infinity), which is why the entries are taken real.
-/
import Idealize.ShloMosaic.PureOps.Ideal
import Idealize.ShloMosaic.PureOps.Ideal.Laws
import Idealize.ShloMosaic.Lib.ValueIdx
import proofs.«112644_j23965917512075_2_alg».proof.Proof.LibERealCoe
import proofs.«112644_j23965917512075_2_alg».proof.Proof.LibRowMin

noncomputable section

open scoped BigOperators

namespace Cert.Semidual

open Idealize.ShloMosaic Idealize.ShloMosaic.ValueIdx

/-- The index sets of the three argument arrays. -/
abbrev XIdx := (⟨2, ![32768, 64]⟩ : Shape).Idx
abbrev YIdx := (⟨2, ![8192, 64]⟩ : Shape).Idx
abbrev PIdx := (⟨1, ![8192]⟩ : Shape).Idx

/-- The factor -2 as one program spells it, and 2 as the other does. -/
abbrev negTwo : EReal := Ideal.ofBits .f32 0xC0000000#32
abbrev two : EReal := Ideal.ofBits .f32 0x40000000#32

theorem negTwo_eq : negTwo = ((-2 : ℝ) : EReal) := by
  simp [negTwo, Ideal.ofBits, Ideal.ieee, -EReal.coe_mul]; norm_num

theorem two_eq : two = ((2 : ℝ) : EReal) := by
  simp [two, Ideal.ofBits, Ideal.ieee, -EReal.coe_mul]; norm_num

/-- The pattern of +infinity is the top element. -/
theorem inf_eq_top : Ideal.ofBits .f32 0x7F800000#32 = (⊤ : EReal) := Cert.LibRowMin.ofBits_inf_f32

/-- The squared norm of row `r` of an array with 64 columns. -/
def sqnorm {n : Nat} (a : (⟨2, ![n, 64]⟩ : Shape).Idx → EReal) (r : Fin n) : EReal :=
  ∑ d : Fin 64, a (ix2 r d) * a (ix2 r d)

/-- The cost of the pair (R, j) with the row constant left out: <(-2) x_R, y_j> + (|y_j|^2 - psi_j). -/
def kcost (x : XIdx → EReal) (y : YIdx → EReal) (psi : PIdx → EReal) (R : Fin 32768) (j : Fin 8192) : EReal :=
  (∑ d : Fin 64, (x (ix2 R d) * negTwo) * y (ix2 j d)) + (sqnorm y j - psi (ix1 j))

/-- Row R's value in that arrangement: the minimum over j, then the row constant |x_R|^2. -/
def krow (x : XIdx → EReal) (y : YIdx → EReal) (psi : PIdx → EReal) (R : Fin 32768) : EReal :=
  (Finset.univ.inf fun j : Fin 8192 => kcost x y psi R j) + sqnorm x R

/-- The cost of the pair (R, j) with the square expanded: (|x_R|^2 + |y_j|^2) - 2 <x_R, y_j> - psi_j. -/
def rcost (x : XIdx → EReal) (y : YIdx → EReal) (psi : PIdx → EReal) (R : Fin 32768) (j : Fin 8192) : EReal :=
  ((sqnorm x R + sqnorm y j) - two * ∑ d : Fin 64, x (ix2 R d) * y (ix2 j d)) - psi (ix1 j)

/-- Row R's value in that arrangement: the minimum over j of the expanded costs. -/
def rrow (x : XIdx → EReal) (y : YIdx → EReal) (psi : PIdx → EReal) (R : Fin 32768) : EReal :=
  Finset.univ.inf fun j : Fin 8192 => rcost x y psi R j

/-- The loss from the rows' values: their mean plus the mean of psi (each a sum divided by the count). -/
def loss (rows : Fin 32768 → EReal) (psi : PIdx → EReal) : EReal :=
  Ideal.div (∑ R : Fin 32768, rows R) (Ideal.ofBits .f32 0x47000000#32)
    + Ideal.div (∑ j : Fin 8192, psi (ix1 j)) (Ideal.ofBits .f32 0x46000000#32)

/-- Entry by entry on reals: the cost with the row constant left out, plus that constant, is the expanded cost. -/
theorem cost_eq (X Y : Fin 64 → ℝ) (ψ : ℝ) :
    ((∑ d : Fin 64, ((X d : EReal) * negTwo) * (Y d : EReal)) + ((∑ d : Fin 64, (Y d : EReal) * (Y d : EReal)) - (ψ : EReal)))
        + (∑ d : Fin 64, (X d : EReal) * (X d : EReal))
      = (((∑ d : Fin 64, (X d : EReal) * (X d : EReal)) + (∑ d : Fin 64, (Y d : EReal) * (Y d : EReal)))
          - two * ∑ d : Fin 64, (X d : EReal) * (Y d : EReal)) - (ψ : EReal) := by
  rw [negTwo_eq, two_eq]
  simp only [← EReal.coe_mul, ← ERealCoe.coe_sum, ← EReal.coe_add, ← EReal.coe_sub]
  refine congrArg _ ?_
  have h : ∑ d : Fin 64, X d * (-2) * Y d = -2 * ∑ d : Fin 64, X d * Y d := by
    rw [Finset.mul_sum]; exact Finset.sum_congr rfl fun d _ => by ring
  rw [h]; ring

/-- On real entries the two arrangements give every row the same value. -/
theorem krow_eq_rrow (x : XIdx → EReal) (y : YIdx → EReal) (psi : PIdx → EReal)
    (hx : ∀ i, ∃ r : ℝ, x i = (r : EReal)) (hy : ∀ i, ∃ r : ℝ, y i = (r : EReal)) (hp : ∀ i, ∃ r : ℝ, psi i = (r : EReal))
    (R : Fin 32768) : krow x y psi R = rrow x y psi R := by
  choose X hX using hx
  choose Y hY using hy
  choose Ψ hΨ using hp
  have hsx : sqnorm x R = ((∑ d : Fin 64, X (ix2 R d) * X (ix2 R d) : ℝ) : EReal) := by
    unfold sqnorm; rw [ERealCoe.coe_sum]
    exact Finset.sum_congr rfl fun d _ => by rw [hX, EReal.coe_mul]
  unfold krow rrow
  rw [hsx, Cert.LibRowMin.inf_add_coe]
  refine Finset.inf_congr rfl fun j _ => ?_
  rw [← hsx]
  unfold kcost rcost sqnorm
  simp only [hX, hY, hΨ]
  exact cost_eq (fun d => X (ix2 R d)) (fun d => Y (ix2 j d)) (Ψ (ix1 j))

end Cert.Semidual

end
-- ==== Proof.Finite.lean ====
/-
  The precondition read back. It says, of each of the three float argument arrays, that every entry x has
  |x| < +infinity (an `and` over all entries of the comparison, and the `and` of the three results, is 1).
  Over the extended reals |x| is max x (-x) and the pattern of +infinity is the top element, so the comparison
  holds exactly when x is neither top nor bottom: x is (the coercion of) a real number.
-/
import proofs.«112644_j23965917512075_2_alg».proof.Pre_finite_inputs
import proofs.«112644_j23965917512075_2_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic

/-- The rank-0 shape has one index. -/
instance : Subsingleton Cert.Pre_finite_inputs.S_.Idx := ⟨fun a b => funext fun d => d.elim0⟩

/-- A one-bit word made from a Boolean is 1 exactly when the Boolean is true. -/
theorem ofBool_eq_one (b : Bool) : BitVec.ofBool b = 1#1 ↔ b = true := by cases b <;> decide

/-- The element fact: an extended real whose absolute value is strictly below the pattern of +infinity is a real. -/
theorem real_of_abs_lt (x : EReal)
    (h : Ideal.cmp .olt (max x (-x)) (Ideal.ofBits .f32 0x7F800000#32) = 1#1) : ∃ r : ℝ, x = (r : EReal) := by
  have ht : Ideal.ofBits .f32 0x7F800000#32 = (⊤ : EReal) := by simp [Ideal.ofBits, Ideal.ieee]
  rw [ht] at h
  simp only [Ideal.cmp, ofBool_eq_one, decide_eq_true_eq] at h
  induction x using EReal.rec with
  | bot => simp at h
  | coe r => exact ⟨r, rfl⟩
  | top => simp at h

/-- THE PRECONDITION DECODED: every entry of each of the three argument arrays is a real number. -/
theorem entries_real [Cert.Pre_finite_inputs.Facts] (a0 : FVec Ideal Cert.Pre_finite_inputs.S32768x64 .f32) (a1 : FVec Ideal Cert.Pre_finite_inputs.S8192x64 .f32) (a2 : FVec Ideal Cert.Pre_finite_inputs.S8192 .f32)
    (h : Cert.Pre_finite_inputs.fn (F := Ideal) a0 a1 a2 = fun _ => 1#1) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [Cert.Pre_finite_inputs.fn] at e
  simp only [Idealize.ShloMosaic.andi, IntOp.andi_eq_one] at e
  obtain ⟨⟨h0, h1⟩, h2⟩ := e
  refine ⟨fun i => ?_, fun i => ?_, fun i => ?_⟩
  · exact real_of_abs_lt _ (Host.reduce_andi_all _ _ _ _ _ h0 i)
  · exact real_of_abs_lt _ (Host.reduce_andi_all _ _ _ _ _ h1 i)
  · exact real_of_abs_lt _ (Host.reduce_andi_all _ _ _ _ _ h2 i)

end Cert.Finite

end
-- ==== Proof.RefSide.lean ====
/-
  The reference's result read index by index at the extended reals.

  The reference forms, for every pair (R, j), the expanded cost
      (|x_R|^2 + |y_j|^2) - 2 <x_R, y_j> - psi_j ,
  takes each row's minimum over j starting from +infinity, and returns the mean of the rows' minima plus the mean
  of psi. Every stage but the minimum is read at an index by the generated module; the minimum over one axis is read
  here as a finite infimum over that axis's coordinates. The result is the specification's loss of its expanded rows.
-/
import proofs.«112644_j23965917512075_2_alg».proof.Defs
import proofs.«112644_j23965917512075_2_alg».proof.Proof.Gen.ReferenceIdeal.Run
import proofs.«112644_j23965917512075_2_alg».proof.Proof.Gen.ReferenceIdeal.Read
import proofs.«112644_j23965917512075_2_alg».proof.Proof.Spec
import Idealize.ShloMosaic.Lib.ValueIdx
import Idealize.ShloMosaic.PureOps.Ideal.Laws
import Idealize.ShloMosaic.PureOps.Reduce

noncomputable section

open scoped BigOperators

namespace Cert.ReferenceIdeal.RefSide

open Cert.ReferenceIdeal Cert.ReferenceIdeal.Gen Cert.ReferenceIdeal.Read Idealize.ShloMosaic Idealize.ShloMosaic.ValueIdx Cert.Semidual

/-! ## The composed index functions, by coordinates

  Each broadcast, transpose and one-axis sum reads its operand at an index computed from the result's. Composed along
  the program and started at the pair (R, j), they name the entries one expects: row R of x and row j of y at column k,
  and entry j of psi. -/

/-- |x_R|^2 is broadcast along j: at (R, j), its k-th summand is x at (R, k). -/
theorem sqx_idx (R : Fin 32768) (j : Fin 8192) (k : Fin 64) :
    idx_main_v1 (idx_main_v2 (idx_main_v6 (ix2 R j))) k = ix2 R k :=
  funext fun a => Fin.ext (by match a with | ⟨0, _⟩ => rfl | ⟨1, _⟩ => rfl)

/-- |y_j|^2 is broadcast along R: at (R, j), its k-th summand is y at (j, k). -/
theorem sqy_idx (R : Fin 32768) (j : Fin 8192) (k : Fin 64) :
    idx_main_v4 (idx_main_v5 (idx_main_v7 (ix2 R j))) k = ix2 j k :=
  funext fun a => Fin.ext (by match a with | ⟨0, _⟩ => rfl | ⟨1, _⟩ => rfl)

/-- The inner product's left factor at (R, j) and contraction coordinate k is x at (R, k). -/
theorem dotl_idx (R : Fin 32768) (j : Fin 8192) (k : Fin 64) :
    lidx_main_v10 (ix2 R j) k = ix2 R k :=
  funext fun a => Fin.ext (by match a with | ⟨0, _⟩ => rfl | ⟨1, _⟩ => rfl)

/-- Its right factor is the transpose of y at (k, j), that is y at (j, k). -/
theorem dotr_idx (R : Fin 32768) (j : Fin 8192) (k : Fin 64) :
    idx_main_v9 (ridx_main_v10 (ix2 R j) k) = ix2 j k :=
  funext fun a => Fin.ext (by match a with | ⟨0, _⟩ => rfl | ⟨1, _⟩ => rfl)

/-- psi is broadcast along R: at (R, j) it is psi at j. -/
theorem psi_idx (R : Fin 32768) (j : Fin 8192) :
    idx_main_v14 (idx_main_v15 (ix2 R j)) = ix1 j :=
  funext fun a => Fin.ext (by match a with | ⟨0, _⟩ => rfl)

/-! ## The cost of a pair -/

/-- The array the minimum is taken over holds, at (R, j), the expanded cost of the pair: each squared norm is zero
    plus the sum of the squares, the factor 2 stands on the left of the inner product, and psi_j is subtracted last. -/
theorem cost_apply (x0 : (⟨S32768x64, .f32⟩ : BufTy).Contents (Elt Ideal)) (x1 : (⟨S8192x64, .f32⟩ : BufTy).Contents (Elt Ideal))
    (x2 : (⟨S8192, .f32⟩ : BufTy).Contents (Elt Ideal)) (R : Fin 32768) (j : Fin 8192) :
    val_main_v16 (F := Ideal) x0 x1 x2 (ix2 R j) = rcost x0 x1 x2 R j := by
  rw [val_main_v16_apply, val_main_v13_apply, val_main_v8_apply, val_main_v6_apply, val_main_v2_apply, val_main_v1_apply,
    val_main_v7_apply, val_main_v5_apply, val_main_v4_apply, val_main_v12_apply, val_main_v11_apply, val_main_cst_1_apply,
    val_main_v10_apply, val_main_v15_apply, val_main_v14_apply, val_main_cst_apply, val_main_cst_0_apply]
  simp only [val_main_v0_apply, val_main_v3_apply, val_main_v9_apply, sqx_idx, sqy_idx, dotl_idx, dotr_idx, psi_idx,
    Ideal.mulf_def, Ideal.addf_def, Ideal.subf_def, Ideal.ofBits_def, Ideal.ofBits_zero_f32, zero_add]
  rfl

/-! ## A row's minimum -/

/-- The minimum over the second axis, started from +infinity, is at row R the infimum over j of the pairs' costs:
    a commutative and associative fold over one axis runs over that axis's coordinates, the index over row R with
    coordinate j inserted is the pair (R, j), the minimum of two extended reals is their meet, the pattern of
    +infinity is the top element, and a finite infimum is by definition the fold of the meet from the top element. -/
theorem row_apply (x0 : (⟨S32768x64, .f32⟩ : BufTy).Contents (Elt Ideal)) (x1 : (⟨S8192x64, .f32⟩ : BufTy).Contents (Elt Ideal))
    (x2 : (⟨S8192, .f32⟩ : BufTy).Contents (Elt Ideal)) (R : Fin 32768) :
    val_main_v17 (F := Ideal) x0 x1 x2 (ix1 R) = rrow x0 x1 x2 R := by
  have h : S32768x8192.Reduces [1] S32768 := by decide
  unfold val_main_v17
  rw [Host.reduce_eq_fold_single FloatOps.minimumf _ _ reducesTo_S32768x8192_S32768_d1 h h_S_ (ix1 R)]
  refine (Finset.fold_congr (g := fun j : Fin 8192 => rcost x0 x1 x2 R j) fun j _ => ?_).trans ?_
  · show val_main_v16 (F := Ideal) x0 x1 x2 (h.lift (ix1 R) j) = _
    rw [show h.lift (ix1 R) j = ix2 R j from
      funext fun a => Fin.ext (by match a with | ⟨0, _⟩ => rfl | ⟨1, _⟩ => rfl)]
    exact cost_apply x0 x1 x2 R j
  · rw [val_main_cst_2_apply, Ideal.ofBits_def, inf_eq_top]
    rfl

/-! ## The two means -/

/-- A rank-1 index set is its coordinate's range … -/
def idxEquiv1 {n : Nat} : Fin n ≃ (⟨1, ![n]⟩ : Shape).Idx where
  toFun := ix1
  invFun j := j 0
  left_inv _ := rfl
  right_inv j := (eq_ix1 j).symm

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)) f).symm

/-- The reference's result is the loss of the expanded rows: zero plus the sum of the rows' minima, divided by the
    number of rows, plus zero plus the sum of psi, divided by its length. -/
theorem reference_is_loss (x0 : (⟨Cert.ReferenceIdeal.S32768x64, .f32⟩ : BufTy).Contents (Elt Ideal))
    (x1 : (⟨Cert.ReferenceIdeal.S8192x64, .f32⟩ : BufTy).Contents (Elt Ideal))
    (x2 : (⟨Cert.ReferenceIdeal.S8192, .f32⟩ : BufTy).Contents (Elt Ideal)) :
    Cert.ReferenceIdeal.Read.val_main_v22 (F := Ideal) x0 x1 x2 = fun _ => Cert.Semidual.loss (Cert.Semidual.rrow x0 x1 x2) x2 := by
  funext i
  rw [val_main_v22_apply, val_main_v19_apply, val_main_v18_apply, val_main_v21_apply, val_main_v20_apply,
    val_main_cst_3_apply, val_main_cst_4_apply, val_main_cst_5_apply, val_main_cst_6_apply]
  simp only [Ideal.addf_def, Ideal.hostDivf_def, Ideal.ofBits_def, Ideal.ofBits_zero_f32, zero_add]
  rw [sum_idx1 (n := 32768), sum_idx1 (n := 8192)]
  simp only [row_apply]
  rfl

end Cert.ReferenceIdeal.RefSide

end
-- ==== Proof.KPieces.lean ====
/-
  What one run of the kernel body leaves behind, as values of what it read.

  The body keeps a running row minimum in a scratch column. At the first column tile of a row block it first fills
  the scratch with +infinity; at every tile it replaces the scratch by the entrywise minimum of the scratch and the
  tile's row minima; at the last tile it also writes the scratch plus the rows' squared norms to the output block.
  Each of these is a single store covering the whole column, so what the scratch (or the output block) holds
  afterwards is that store's value: the tile update `k0_pay2` applied to the three input blocks and the previous
  scratch (the +infinity column `k0_pay1` at a first tile), and for the output the finishing step `k0_pay3` applied
  to the x block and the freshly updated scratch.
-/
import proofs.«112644_j23965917512075_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

/-- Every load and store of the body starts at the origin of its buffer. -/
theorem hz : (![0, 0] : Fin 2 → Nat) = fun _ => 0 := funext fun a => by fin_cases a <;> rfl

/-- A middle tile: the scratch ends at the tile update of the input blocks and the scratch it found. -/
theorem scratch_B (c : Dev nD) (i : grid0.Coords) (a2 : Memref sig .tc .vmem S2048x64 .f32) (h2 : a2.IsWhole) (a3 : Memref sig .tc .vmem S1024x64 .f32) (h3 : a3.IsWhole) (a4 : Memref sig .tc .vmem S1x1024 .f32) (h4 : a4.IsWhole) (a5 : Memref sig .tc .vmem S2048x1 .f32) (h5 : a5.IsWhole) (a6 : Memref sig .tc .vmem S2048x1 .f32) (h6 : a6.IsWhole) (hc0 : ¬cond0_0 i) (hc1 : ¬cond0_1 i)
    (x0 : Vec F S2048x64 .f32) (x1 : Vec F S1024x64 .f32) (x2 : Vec F S1x1024 .f32) (xs0 : Vec F S2048x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  rw [View.canon_unit_zero hz]
  simp only [View.readAt_eq_ld, h2.read_unread, h3.read_unread, h4.read_unread, h6.read_unread,
    View.ld_unit_zero (S := S2048x64) hz, View.ld_unit_zero (S := S1024x64) hz, View.ld_unit_zero (S := S1x1024) hz,
    View.ld_unit_zero (S := S2048x1) hz]

/-- The last tile: the scratch ends at the same tile update. -/
theorem scratch_C (c : Dev nD) (i : grid0.Coords) (a2 : Memref sig .tc .vmem S2048x64 .f32) (h2 : a2.IsWhole) (a3 : Memref sig .tc .vmem S1024x64 .f32) (h3 : a3.IsWhole) (a4 : Memref sig .tc .vmem S1x1024 .f32) (h4 : a4.IsWhole) (a5 : Memref sig .tc .vmem S2048x1 .f32) (h5 : a5.IsWhole) (a6 : Memref sig .tc .vmem S2048x1 .f32) (h6 : a6.IsWhole) (hc0 : ¬cond0_0 i) (hc1 : cond0_1 i)
    (x0 : Vec F S2048x64 .f32) (x1 : Vec F S1024x64 .f32) (x2 : Vec F S1x1024 .f32) (xs0 : Vec F S2048x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S2048x64) hz, View.ld_unit_zero (S := S1024x64) hz, View.ld_unit_zero (S := S1x1024) hz,
    View.ld_unit_zero (S := S2048x1) hz]

/-- The last tile: the output block ends at the finishing step of the x block and the updated scratch, which the
    body reads back after storing it. -/
theorem out_C (c : Dev nD) (i : grid0.Coords) (a2 : Memref sig .tc .vmem S2048x64 .f32) (h2 : a2.IsWhole) (a3 : Memref sig .tc .vmem S1024x64 .f32) (h3 : a3.IsWhole) (a4 : Memref sig .tc .vmem S1x1024 .f32) (h4 : a4.IsWhole) (a5 : Memref sig .tc .vmem S2048x1 .f32) (h5 : a5.IsWhole) (a6 : Memref sig .tc .vmem S2048x1 .f32) (h6 : a6.IsWhole) (hc0 : ¬cond0_0 i) (hc1 : cond0_1 i)
    (x0 : Vec F S2048x64 .f32) (x1 : Vec F S1024x64 .f32) (x2 : Vec F S1x1024 .f32) (xs0 : Vec F S2048x1 .f32) :
    out0_C_3 c i a2 h2 a3 h3 a4 h4 a5 h5 a6 h6 hc0 hc1 x0 x1 x2 xs0 = k0_pay3 x0 (k0_pay2 x0 x1 x2 xs0) := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S2048x64) hz, View.ld_unit_zero (S := S1024x64) hz, View.ld_unit_zero (S := S1x1024) hz,
    View.ld_unit_zero (S := S2048x1) hz, View.readCov_unit_zero (S := S2048x1) _ hz]

/-- A first tile: the body fills the scratch with +infinity, reads it back, and leaves the tile update of that. -/
theorem scratch_A (c : Dev nD) (i : grid0.Coords) (a2 : Memref sig .tc .vmem S2048x64 .f32) (h2 : a2.IsWhole) (a3 : Memref sig .tc .vmem S1024x64 .f32) (h3 : a3.IsWhole) (a4 : Memref sig .tc .vmem S1x1024 .f32) (h4 : a4.IsWhole) (a5 : Memref sig .tc .vmem S2048x1 .f32) (h5 : a5.IsWhole) (a6 : Memref sig .tc .vmem S2048x1 .f32) (h6 : a6.IsWhole) (hc0 : cond0_0 i) (hc1 : ¬cond0_1 i)
    (x0 : Vec F S2048x64 .f32) (x1 : Vec F S1024x64 .f32) (x2 : Vec F S1x1024 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S2048x1) hz, View.readCov_unit_zero (S := S2048x1) _ hz]
  simp only [View.readAt_eq_ld, h2.read_unread, h3.read_unread, h4.read_unread, h6.read_unread,
    View.ld_unit_zero (S := S2048x64) hz, View.ld_unit_zero (S := S1024x64) hz, View.ld_unit_zero (S := S1x1024) hz,
    View.ld_unit_zero (S := S2048x1) hz]

end Cert.KernelIdeal.KValue

end
-- ==== Proof.Tiles.lean ====
/-
  Minima over column ranges, over the extended reals.

  The 8192 columns come in 8 tiles of 1024: the columns below tile k + 1 are the columns below tile k together with tile k itself, so
  the minimum over them is the smaller of the minimum so far and the tile's minimum (`inf_below_succ`); below tile 0
  there is nothing, and the empty minimum is the top element (`inf_below_zero`); below tile 8 is every column
  (`below_eight`). This is what lets a running minimum kept across the tiles be read as one minimum over all columns.
-/
import Mathlib.Data.EReal.Basic
import Mathlib.Data.Finset.Lattice.Fold
import Mathlib.Data.Fintype.Basic
import Mathlib.Tactic

namespace Cert.Tiles

open Finset

/-- The columns strictly below tile `q` (the first `1024 * q` columns). -/
def below (q : ℕ) : Finset (Fin 8192) := Finset.univ.filter fun j => j.val < 1024 * q

/-- Column `j'` of tile `k`. -/
def col (k : ℕ) (hk : k < 8) (j' : Fin 1024) : Fin 8192 := ⟨1024 * k + j'.val, by have := j'.isLt; omega⟩

theorem col_injective (k : ℕ) (hk : k < 8) : Function.Injective (col k hk) := fun a b h => by
  have := congrArg Fin.val h
  simp only [col] at this
  exact Fin.ext (by omega)

theorem inf_below_zero (f : Fin 8192 → EReal) : (below 0).inf f = ⊤ := by
  have : below 0 = ∅ := by
    ext j; simp [below]
  rw [this, Finset.inf_empty]

theorem below_eight : below 8 = Finset.univ := by
  ext j; simp only [below, Finset.mem_filter, Finset.mem_univ, true_and, iff_true]
  have := j.isLt; omega

theorem below_succ (k : ℕ) (hk : k < 8) :
    below (k + 1) = below k ∪ Finset.univ.map ⟨col k hk, col_injective k hk⟩ := by
  ext j
  simp only [below, Finset.mem_filter, Finset.mem_univ, true_and, Finset.mem_union, Finset.mem_map,
    Function.Embedding.coeFn_mk]
  constructor
  · intro h
    by_cases hj : j.val < 1024 * k
    · exact Or.inl hj
    · refine Or.inr ⟨⟨j.val - 1024 * k, by omega⟩, ?_⟩
      apply Fin.ext
      simp only [col]
      omega
  · rintro (h | ⟨j', rfl⟩)
    · omega
    · have := j'.isLt
      simp only [col]
      omega

/-- The minimum over the columns below tile `k + 1` is the smaller of the minimum below tile `k` and tile `k`'s. -/
theorem inf_below_succ (f : Fin 8192 → EReal) (k : ℕ) (hk : k < 8) :
    min ((below k).inf f) (Finset.univ.inf fun j' : Fin 1024 => f (col k hk j')) = (below (k + 1)).inf f := by
  rw [below_succ k hk, Finset.inf_union, Finset.inf_map]
  rfl

/-- At the first tile the running minimum starts from the top element. -/
theorem inf_below_first (f : Fin 8192 → EReal) (k : ℕ) (hk : k < 8) (h0 : k = 0) :
    min ⊤ (Finset.univ.inf fun j' : Fin 1024 => f (col k hk j')) = (below (k + 1)).inf f := by
  subst h0
  rw [← inf_below_succ f 0 hk, inf_below_zero]

end Cert.Tiles
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KPayload.lean ====
/-
  The body's three stored values read at a row, over the extended reals.

  With x the block of 2048 rows of the first argument, y the block of 1024 rows of the second, cc the block of 1024
  entries of the bias row and acc the scratch column:
    the +infinity column reads the top element at every row;
    the tile update at row r is  min (acc r) (min over the tile's columns j of  <(-2) x_r, y_j> + cc_j):
      the format changes are the identity, the transposed product accumulated into zero is the plain inner product,
      the bias row is repeated down the rows, and the row minimum from +infinity is the infimum of the row;
    the finishing step at row r is  acc r + |x_r|^2.
-/
import proofs.«112644_j23965917512075_2_alg».proof.Proof.Gen.KernelIdeal.Skeleton
import proofs.«112644_j23965917512075_2_alg».proof.Proof.Spec
import proofs.«112644_j23965917512075_2_alg».proof.Proof.Tiles
import proofs.«112644_j23965917512075_2_alg».proof.Proof.LibKeepdims
import proofs.«112644_j23965917512075_2_alg».proof.Proof.LibRowOps
import proofs.«112644_j23965917512075_2_alg».proof.Proof.LibRowMin
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

open scoped BigOperators

namespace Cert.KernelIdeal.KValue

open Idealize.ShloMosaic Idealize.ShloMosaic.ValueIdx Cert.KernelIdeal Cert.KernelIdeal.Gen Cert.Semidual

/-- The cost of row `r` against column `j` of the tile, as the body forms it. -/
def tileCost (x : Vec Ideal S2048x64 .f32) (y : Vec Ideal S1024x64 .f32) (cc : Vec Ideal S1x1024 .f32)
    (r : Fin 2048) (j : Fin 1024) : EReal :=
  (∑ d : Fin 64, (x (ix2 r d) * negTwo) * y (ix2 j d)) + cc (ix2 (0 : Fin 1) j)

/-- The +infinity column. -/
theorem pay1_apply (r : Fin 2048) : k0_pay1 (F := Ideal) (ix2 r (0 : Fin 1)) = (⊤ : EReal) := by
  unfold k0_pay1
  refine (congrFun (shapeCast_self _ _) _).trans ?_
  exact Cert.Semidual.inf_eq_top

/-- The tile update at a row. -/
theorem pay2_apply (x : Vec Ideal S2048x64 .f32) (y : Vec Ideal S1024x64 .f32) (cc : Vec Ideal S1x1024 .f32)
    (acc : Vec Ideal S2048x1 .f32) (r : Fin 2048) :
    k0_pay2 (F := Ideal) x y cc acc (ix2 r (0 : Fin 1))
      = min (acc (ix2 r (0 : Fin 1))) (Finset.univ.inf fun j : Fin 1024 => tileCost x y cc r j) := by
  unfold k0_pay2
  refine (congrFun (shapeCast_self _ _) _).trans ?_
  refine congrArg (min (acc (ix2 r (0 : Fin 1)))) ?_
  refine (Cert.LibKeepdims.shapeCast_col_apply _ _ r).trans ?_
  refine (Cert.LibRowMin.rowmin_apply _ _ _ _ r).trans ?_
  refine Finset.inf_congr rfl fun j _ => ?_
  unfold tileCost
  refine congrArg₂ (· + ·) ?_ ?_
  · refine (Cert.KernelBody.matmul_plain_zero_apply _ none _ _ r j).trans ?_
    refine Finset.sum_congr rfl fun d _ => ?_
    refine congrArg₂ (· * ·) rfl ?_
    exact transpose_ix2_apply _ _ d j
  · refine (Cert.KernelBody.broadcastTo_row_apply _ _ r j).trans ?_
    exact congrFun (shapeCast_self _ _) _

/-- The finishing step at a row. -/
theorem pay3_apply (x : Vec Ideal S2048x64 .f32) (acc : Vec Ideal S2048x1 .f32) (r : Fin 2048) :
    k0_pay3 (F := Ideal) x acc (ix2 r (0 : Fin 1))
      = acc (ix2 r (0 : Fin 1)) + ∑ d : Fin 64, x (ix2 r d) * x (ix2 r d) := by
  unfold k0_pay3
  refine congrArg (acc (ix2 r (0 : Fin 1)) + ·) ?_
  refine (Cert.LibKeepdims.shapeCast_col_apply _ _ r).trans ?_
  exact Cert.LibKeepdims.rowsum_apply _ _ _ _ _ r

end Cert.KernelIdeal.KValue

end
-- ==== Proof.KBlocks.lean ====
/-
  Which entries of the arrays a grid point's blocks hold.

  The grid has 16 row blocks by 8 column tiles, visited row block by row block: point t is row block t / 8 and
  column tile t % 8. At that point the first window holds rows 2048 (t / 8) + r of x, the second rows
  1024 (t % 8) + j of y, the third entries 1024 (t % 8) + j of the bias row, and the output window rows
  2048 (t / 8) + r of the result column.
-/
import proofs.«112644_j23965917512075_2_alg».proof.Proof.Gen.KernelIdeal.Frame
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]
variable (m : (ℓ : Loc nD τ sig) → Buf (Elt F) ℓ)

/-- The four windows' block indices at every grid point. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = 0 ∧ win0_2.index t (1 : Fin 2) = t.val % 8
    ∧ win0_3.index t (0 : Fin 2) = t.val / 8 ∧ win0_3.index t (1 : Fin 2) = 0 :=
  (by decide +kernel : ∀ t : Fin grid0.N, _)

/-- The x block at a point: rows 2048 (t / 8) + r. -/
theorem iblk0_apply (c : Dev nD) (t : Fin cfg0.N) (r : Fin 2048) (d : Fin 64) (R : Fin 32768)
    (hR : R.val = 2048 * (t.val / 8) + r.val) :
    (iblk m c 0 t : Vec F S2048x64 .f32) (ix2 r d) = V m c main_arg0 (ix2 R d) := by
  unfold iblk
  rw [View.read_apply]
  show V m c main_arg0 _ = V m c main_arg0 _
  refine congrArg (V m c main_arg0) ?_
  funext a; apply Fin.ext
  match a with
  | ⟨0, _⟩ => show win0_0.index t 0 * 2048 + 1 * r.val = R.val; rw [(idx_facts t).1, hR]; omega
  | ⟨1, _⟩ => show win0_0.index t 1 * 64 + 1 * d.val = d.val; rw [(idx_facts t).2.1]; omega

/-- The y block at a point: rows 1024 (t % 8) + j. -/
theorem iblk1_apply (c : Dev nD) (t : Fin cfg0.N) (j : Fin 1024) (d : Fin 64) (J : Fin 8192)
    (hJ : J.val = 1024 * (t.val % 8) + j.val) :
    (iblk m c 1 t : Vec F S1024x64 .f32) (ix2 j d) = V m c main_arg1 (ix2 J d) := by
  unfold iblk
  rw [View.read_apply]
  show V m c main_arg1 _ = V m c main_arg1 _
  refine congrArg (V m c main_arg1) ?_
  funext a; apply Fin.ext
  match a with
  | ⟨0, _⟩ => show win0_1.index t 0 * 1024 + 1 * j.val = J.val; rw [(idx_facts t).2.2.1, hJ]; omega
  | ⟨1, _⟩ => show win0_1.index t 1 * 64 + 1 * d.val = d.val; rw [(idx_facts t).2.2.2.1]; omega

/-- The bias block at a point: entries 1024 (t % 8) + j of the row. -/
theorem iblk2_apply (c : Dev nD) (t : Fin cfg0.N) (j : Fin 1024) (J : Fin 8192)
    (hJ : J.val = 1024 * (t.val % 8) + j.val) :
    (iblk m c 2 t : Vec F S1x1024 .f32) (ix2 (0 : Fin 1) j) = V m c main_v3 (ix2 (0 : Fin 1) J) := by
  unfold iblk
  rw [View.read_apply]
  show V m c main_v3 _ = V m c main_v3 _
  refine congrArg (V m c main_v3) ?_
  funext a; apply Fin.ext
  match a with
  | ⟨0, _⟩ => show win0_2.index t 0 * 1 + 1 * 0 = 0; rw [(idx_facts t).2.2.2.2.1]
  | ⟨1, _⟩ => show win0_2.index t 1 * 1024 + 1 * j.val = J.val; rw [(idx_facts t).2.2.2.2.2.1, hJ]; omega

end Cert.KernelIdeal.KValue

end
-- ==== Proof.KAccum.lean ====
/-
  The running minimum across a row block's eight column tiles.

  Write x, y for the first two arrays as the region finds them and cv for the bias row the host prepared. For row R
  and column J put  cost R J = <(-2) x_R, y_J> + cv_J.  After the point of row block i and column tile k the scratch
  column holds, at row r, the minimum of cost (2048 i + r) J over the columns J below tile k + 1: at tile 0 the
  scratch is first set to +infinity, and each tile folds its own 1024 columns in. After tile 7 that is the minimum
  over all 8192 columns, and the output block receives it plus |x_R|^2.
-/
import proofs.«112644_j23965917512075_2_alg».proof.Proof.KPieces
import proofs.«112644_j23965917512075_2_alg».proof.Proof.KPayload
import proofs.«112644_j23965917512075_2_alg».proof.Proof.KBlocks

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.Semidual

/-! ## What each kind of point leaves, for any float values -/

section AnyValues
variable {F : FTy → Type} [FloatOps F]
variable (m : (ℓ : Loc nD τ sig) → Buf (Elt F) ℓ)

/-- A first tile: the scratch ends at the tile update of the point's blocks over the +infinity column. -/
theorem outsAt_first (c : Dev nD) (t : Fin cfg0.N) (h0 : t.val % 8 = 0) (h1 : ¬t.val % 8 = 7) :
    (outsAt0 m c t.val t.isLt).2 = k0_pay2 (iblk m c 0 t) (iblk m c 1 t) (iblk m c 2 t) (k0_pay1 (F := F)) := by
  rw [outsAt0_A m c t h0 h1]
  dsimp only
  exact scratch_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- A middle tile: the tile update over what the point before left. -/
theorem outsAt_middle (c : Dev nD) (t : Fin cfg0.N) (h0 : ¬t.val % 8 = 0) (h1 : ¬t.val % 8 = 7) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_B m c t h0 h1]
  dsimp only
  exact scratch_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- The last tile: the same for the scratch, -/
theorem outsAt_last (c : Dev nD) (t : Fin cfg0.N) (h0 : ¬t.val % 8 = 0) (h1 : t.val % 8 = 7) :
    (outsAt0 m c t.val t.isLt).2 = k0_pay2 (iblk m c 0 t) (iblk m c 1 t) (iblk m c 2 t) (outsAt0 m c (t.val - 1) (Nat.lt_of_le_of_lt (Nat.sub_le _ _) t.isLt)).2 := by
  rw [outsAt0_C m c t h0 h1]
  dsimp only
  exact scratch_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block receives the finishing step of the x block and the updated scratch. -/
theorem outsAt_last_out (c : Dev nD) (t : Fin cfg0.N) (h0 : ¬t.val % 8 = 0) (h1 : t.val % 8 = 7) :
    (outsAt0 m c t.val t.isLt).1 = k0_pay3 (iblk m c 0 t) (outsAt0 m c t.val t.isLt).2 := by
  rw [outsAt_last m c t h0 h1, outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

end AnyValues

/-! ## Over the extended reals -/

variable (m : (ℓ : Loc nD τ sig) → Buf (Elt Ideal) ℓ)

/-- The cost of row `R` against column `J` over whole arrays: <(-2) x_R, y_J> + cv_J. -/
def acost (x : XIdx → EReal) (y : YIdx → EReal) (cv : (⟨2, ![1, 8192]⟩ : Shape).Idx → EReal)
    (R : Fin 32768) (J : Fin 8192) : EReal :=
  (∑ d : Fin 64, (x (ix2 R d) * negTwo) * y (ix2 J d)) + cv (ix2 (0 : Fin 1) J)

/-- The three arrays as the region finds them. -/
abbrev xs (c : Dev nD) : XIdx → EReal := V m c main_arg0
abbrev ys (c : Dev nD) : YIdx → EReal := V m c main_arg1
abbrev cvs (c : Dev nD) : (⟨2, ![1, 8192]⟩ : Shape).Idx → EReal := V m c main_v3

/-- A point's tile cost is the whole arrays' cost at the point's rows and columns. -/
theorem tileCost_blocks (c : Dev nD) (t : Fin cfg0.N) (r : Fin 2048) (j : Fin 1024) (R : Fin 32768)
    (hR : R.val = 2048 * (t.val / 8) + r.val) (hk : t.val % 8 < 8) :
    tileCost (iblk m c 0 t) (iblk m c 1 t) (iblk m c 2 t) r j = acost (xs m c) (ys m c) (cvs m c) R (Cert.Tiles.col (t.val % 8) hk j) := by
  unfold tileCost acost
  refine congrArg₂ (· + ·) (Finset.sum_congr rfl fun d _ => ?_) (iblk2_apply m c t j _ rfl)
  exact congrArg₂ (· * ·) (congrArg (· * negTwo) (iblk0_apply m c t r d R hR)) (iblk1_apply m c t j d _ rfl)

/-- A first tile leaves the minimum over tile 0's columns. -/
theorem step_first (c : Dev nD) (t : Fin cfg0.N) (h0 : t.val % 8 = 0) (r : Fin 2048) (R : Fin 32768)
    (hR : R.val = 2048 * (t.val / 8) + r.val) :
    (outsAt0 m c t.val t.isLt).2 (ix2 r (0 : Fin 1))
      = (Cert.Tiles.below (t.val % 8 + 1)).inf (acost (xs m c) (ys m c) (cvs m c) R) := by
  have hk : t.val % 8 < 8 := Nat.mod_lt _ (by norm_num)
  refine (congrFun (outsAt_first m c t h0 (by omega)) _).trans ?_
  refine (pay2_apply _ _ _ _ r).trans ?_
  rw [pay1_apply, funext fun j => tileCost_blocks m c t r j R hR hk]
  exact Cert.Tiles.inf_below_first _ _ hk h0

/-- A later tile folds its columns into what the point before left. -/
theorem step_next (c : Dev nD) (t : Fin cfg0.N) (h0 : ¬t.val % 8 = 0) (r : Fin 2048) (R : Fin 32768)
    (hR : R.val = 2048 * (t.val / 8) + r.val)
    (ih : (outsAt0 m c (t.val - 1) (Nat.lt_of_le_of_lt (Nat.sub_le _ _) t.isLt)).2 (ix2 r (0 : Fin 1)) = (Cert.Tiles.below (t.val % 8)).inf (acost (xs m c) (ys m c) (cvs m c) R)) :
    (outsAt0 m c t.val t.isLt).2 (ix2 r (0 : Fin 1))
      = (Cert.Tiles.below (t.val % 8 + 1)).inf (acost (xs m c) (ys m c) (cvs m c) R) := by
  have hk : t.val % 8 < 8 := Nat.mod_lt _ (by norm_num)
  have e : (outsAt0 m c t.val t.isLt).2 = k0_pay2 (iblk m c 0 t) (iblk m c 1 t) (iblk m c 2 t) (outsAt0 m c (t.val - 1) (Nat.lt_of_le_of_lt (Nat.sub_le _ _) t.isLt)).2 := by
    by_cases h1 : t.val % 8 = 7
    · exact outsAt_last m c t h0 h1
    · exact outsAt_middle m c t h0 h1
  refine (congrFun e _).trans ?_
  refine (pay2_apply _ _ _ _ r).trans ?_
  rw [ih, funext fun j => tileCost_blocks m c t r j R hR hk]
  exact Cert.Tiles.inf_below_succ _ _ hk

/-- THE RUNNING MINIMUM: after point `n` the scratch holds, at row r, the minimum over the columns below tile
    n % 8 + 1 of row 2048 (n / 8) + r's costs. -/
theorem scratch_inv (c : Dev nD) : ∀ (n : ℕ) (h : n < cfg0.N) (r : Fin 2048) (R : Fin 32768),
    R.val = 2048 * (n / 8) + r.val →
    (outsAt0 m c n h).2 (ix2 r (0 : Fin 1)) = (Cert.Tiles.below (n % 8 + 1)).inf (acost (xs m c) (ys m c) (cvs m c) R)
  | 0, h, r, R, hR => step_first m c ⟨0, h⟩ rfl r R hR
  | n + 1, h, r, R, hR => by
    by_cases h0 : (n + 1) % 8 = 0
    · exact step_first m c ⟨n + 1, h⟩ h0 r R hR
    · refine step_next m c ⟨n + 1, h⟩ h0 r R hR ?_
      show (outsAt0 m c n _).2 (ix2 r (0 : Fin 1)) = (Cert.Tiles.below ((n + 1) % 8)).inf _
      have e : (n + 1) % 8 = n % 8 + 1 := by omega
      rw [e]
      exact scratch_inv c n _ r R (by omega)

/-- After a row block's last tile the output block holds, at row r, the minimum over all columns of row
    2048 (n / 8) + r's costs, plus that row's squared norm. -/
theorem out_last (c : Dev nD) (t : Fin cfg0.N) (h1 : t.val % 8 = 7) (r : Fin 2048) (R : Fin 32768)
    (hR : R.val = 2048 * (t.val / 8) + r.val) :
    (outsAt0 m c t.val t.isLt).1 (ix2 r (0 : Fin 1))
      = (Finset.univ.inf fun J : Fin 8192 => acost (xs m c) (ys m c) (cvs m c) R J) + sqnorm (xs m c) R := by
  refine (congrFun (outsAt_last_out m c t (by omega) h1) _).trans ?_
  refine (pay3_apply _ _ r).trans ?_
  refine congrArg₂ (· + ·) ?_ (Finset.sum_congr rfl fun d _ => ?_)
  · rw [scratch_inv m c t.val t.isLt r R hR, h1, Cert.Tiles.below_eight]
  · exact congrArg₂ (· * ·) (iblk0_apply m c t r d R hR) (iblk0_apply m c t r d R hR)

end Cert.KernelIdeal.KValue

end
-- ==== Proof.KHost.lean ====
/-
  The bias row the host prepares before the kernel runs.

  Before the region the host squares y entrywise, sums each row from zero, subtracts psi and lays the 8192 results
  out as one row: entry J of that row is |y_J|^2 - psi_J. So the cost the kernel forms against the bias row,
  <(-2) x_R, y_J> + cv_J, is the cost <(-2) x_R, y_J> + (|y_J|^2 - psi_J) of the arrangement that keeps the row
  constant out of the minimum. The two float arrays the region reads are the arguments themselves.
-/
import proofs.«112644_j23965917512075_2_alg».proof.Proof.KAccum
import Idealize.ShloMosaic.Lib.StableHlo.Run

set_option maxRecDepth 16384

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.Semidual

variable (m : (ℓ : Loc nD τ sig) → Buf (Elt Ideal) ℓ)

/-- The three arguments as launched. -/
abbrev ax (c : Dev nD) : XIdx → EReal := m ((c.tc : Thread nD τ).loc main_arg0)
abbrev ay (c : Dev nD) : YIdx → EReal := m ((c.tc : Thread nD τ).loc main_arg1)
abbrev apsi (c : Dev nD) : PIdx → EReal := m ((c.tc : Thread nD τ).loc main_arg2)

/-- The bias row as the host's operations compute it from the arguments. -/
theorem cv_term (c : Dev nD) :
    (V m c main_v3 : S1x8192.Idx → EReal)
      = shapeCast S1x8192 (subf (Host.reduceAdd (F := Ideal) (mulf (ay m c) (ay m c)) (constant (F := Ideal) S_ .f32 0x00000000#32)
          reducesTo_S8192x64_S8192_d1 h_S_) (apsi m c)) shapeCasts_S8192_S1x8192 := by
  show StableHlo.after hostOps0 (fun b => m (c, b)) (Proc.devRef .tc main_v3) = _
  after_results
  rfl

/-- Row J's squared norm as the host sums it: from zero, over the 64 columns. -/
theorem hostSq_apply (y : FVec Ideal S8192x64 .f32) (J : Fin 8192) :
    Host.reduceAdd (F := Ideal) (mulf y y) (constant (F := Ideal) S_ .f32 0x00000000#32) reducesTo_S8192x64_S8192_d1 h_S_ (ix1 J)
      = sqnorm y J := by
  generalize hy : mulf y y = y2
  simp only [Host.reduceAdd, Ideal.hostReduceAdd_def]
  rw [Ideal.hostReduceAdd_single reducesTo_S8192x64_S8192_d1 (by decide)]
  subst hy
  unfold sqnorm
  refine (congrArg (· + _) (show (constant (F := Ideal) S_ .f32 0x00000000#32) (Shape.Idx.first h_S_) = 0 from Ideal.ofBits_zero_f32)).trans ?_
  rw [zero_add]
  refine Finset.sum_congr rfl fun k _ => ?_
  have e : (Shape.Reduces.lift (by decide : S8192x64.Reduces [1] S8192) (ix1 J) k) = ix2 J k :=
    funext fun a => Fin.ext (by match a with | ⟨0, _⟩ => rfl | ⟨1, _⟩ => rfl)
  exact congrArg (fun i => y i * y i) e

/-- Entry J of the bias row is |y_J|^2 - psi_J. -/
theorem cv_apply (c : Dev nD) (J : Fin 8192) :
    cvs m c (ix2 (0 : Fin 1) J) = sqnorm (ay m c) J - apsi m c (ix1 J) := by
  show (V m c main_v3 : S1x8192.Idx → EReal) (ix2 (0 : Fin 1) J) = _
  rw [cv_term]
  refine (Cert.KernelBody.shapeCast_row_apply _ _ J).trans ?_
  exact congrArg (· - apsi m c (ix1 J)) (hostSq_apply (ay m c) J)

/-- So the cost against the arrays the region finds is the cost of the arrangement with the row constant left out. -/
theorem acost_eq_kcost (c : Dev nD) (R : Fin 32768) (J : Fin 8192) :
    acost (xs m c) (ys m c) (cvs m c) R J = kcost (ax m c) (ay m c) (apsi m c) R J := by
  have ex : xs m c = ax m c := V_main_arg0 m c
  have ey : ys m c = ay m c := V_main_arg1 m c
  unfold acost kcost
  rw [cv_apply, ex, ey]

/-- A row's value over the arrays the region finds is the row's value of the arguments. -/
theorem krow_region (c : Dev nD) (R : Fin 32768) :
    (Finset.univ.inf fun J : Fin 8192 => acost (xs m c) (ys m c) (cvs m c) R J) + sqnorm (xs m c) R
      = krow (ax m c) (ay m c) (apsi m c) R := by
  unfold krow
  refine congrArg₂ (· + ·) (Finset.inf_congr rfl fun J _ => acost_eq_kcost m c R J) ?_
  exact congrArg (fun a => sqnorm a R) (V_main_arg0 m c : xs m c = ax m c)

end Cert.KernelIdeal.KValue

end
-- ==== Proof.KFinal.lean ====
/-
  The result column after the run.

  The output window is written back only at a row block's last column tile (points 8 i + 7), and what is written is
  the block of rows 2048 i + r of the column  R ↦ (min over all columns J of cost R J) + |x_R|^2 , the row values of
  the arrangement that keeps the row constant out of the minimum. The sixteen write-backs cover all 32768 rows, so
  after the run the whole column holds those row values.
-/
import proofs.«112644_j23965917512075_2_alg».proof.Proof.KHost

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Semidual

variable (m : (ℓ : Loc nD τ sig) → Buf (Elt Ideal) ℓ)

/-- The column of row values, as contents of the result array. -/
def rowsArr (c : Dev nD) : S32768x1.Idx → EReal :=
  fun i => krow (ax m c) (ay m c) (apsi m c) ⟨(i 0).val, idx2_lt0 i⟩

/-- What a write-back writes is its block of the column of row values. -/
theorem flushed_eq (c : Dev nD) (t : Fin cfg0.N) (hf : (cfg0.win 3).flush t = true) :
    (dats m 0 c).flushed 3 t = ((cfg0.win 3).blk t).view.read (Elt Ideal) (rowsArr m c) := by
  have h1 : t.val % 8 = 7 := (flush0_3 t).mp hf
  have hlt : t.val < 128 := lt_of_lt_of_eq t.isLt (show cfg0.N = 128 from N_0)
  show (cfg0.win 3).cut (grid0.coords t) ((dats m 0 c).after 3 t) = _
  rw [after0_3]
  funext y
  obtain ⟨r, z, rfl⟩ : ∃ (r : Fin 2048) (z : Fin 1), y = ix2 r z := ⟨y 0, y 1, eq_ix2 y⟩
  obtain rfl : z = 0 := Subsingleton.elim _ _
  rw [View.read_apply]
  show (outsAt0 m c t.val t.isLt).1 (ix2 r (0 : Fin 1))
    = rowsArr m c (((cfg0.win 3).blk t).view.emb (ix2 r (0 : Fin 1)))
  rw [out_last m c t h1 r ⟨2048 * (t.val / 8) + r.val, by have := r.isLt; omega⟩ rfl, krow_region]
  unfold rowsArr
  refine congrArg (krow (ax m c) (ay m c) (apsi m c)) (Fin.ext ?_)
  show 2048 * (t.val / 8) + r.val = win0_3.index t 0 * 2048 + 1 * r.val
  rw [(idx_facts t).2.2.2.2.2.2.1]
  omega

/-- Every row of the column lies in the block written back at its row block's last tile. -/
theorem cover (i : S32768x1.Idx) :
    ∃ t : Fin cfg0.N, (cfg0.win 3).flush t = true ∧ i ∈ ((cfg0.win 3).blk t).view.set := by
  have hN : cfg0.N = 128 := N_0
  have hi0 : (i 0).val < 32768 := idx2_lt0 i
  have hi1 : (i 1).val < 1 := idx2_lt1 i
  have hb : 8 * ((i 0).val / 2048) + 7 < cfg0.N := by rw [hN]; omega
  refine ⟨⟨8 * ((i 0).val / 2048) + 7, hb⟩, (flush0_3 _).mpr (by show (8 * ((i 0).val / 2048) + 7) % 8 = 7; omega), ?_⟩
  show i ∈ ((View.whole main_v4).slice (win0_3.rect ⟨8 * ((i 0).val / 2048) + 7, hb⟩)).set
  rw [View.set_slice_whole, Rect.mem_set_unit]
  obtain ⟨-, -, -, -, -, -, e6, e7⟩ := idx_facts ⟨8 * ((i 0).val / 2048) + 7, hb⟩
  intro a
  match a with
  | ⟨0, _⟩ =>
    show win0_3.index ⟨8 * ((i 0).val / 2048) + 7, hb⟩ (0 : Fin 2) * 2048 ≤ (i 0).val
      ∧ (i 0).val < win0_3.index ⟨8 * ((i 0).val / 2048) + 7, hb⟩ (0 : Fin 2) * 2048 + 2048
    rw [e6]
    show (8 * ((i 0).val / 2048) + 7) / 8 * 2048 ≤ (i 0).val ∧ (i 0).val < (8 * ((i 0).val / 2048) + 7) / 8 * 2048 + 2048
    omega
  | ⟨1, _⟩ =>
    show win0_3.index ⟨8 * ((i 0).val / 2048) + 7, hb⟩ (1 : Fin 2) * 1 ≤ (i 1).val
      ∧ (i 1).val < win0_3.index ⟨8 * ((i 0).val / 2048) + 7, hb⟩ (1 : Fin 2) * 1 + 1
    rw [e7]
    omega

/-- THE RESULT COLUMN after the run: the column of row values. -/
theorem final (c : Dev nD) : (dats m 0 c).arrAt 3 cfg0.N = rowsArr m c :=
  (dats m 0 c).arrAt_eq_of_cover 3 (rowsArr m c) (flushed_eq m c) cover

end Cert.KernelIdeal.KValue

end
-- ==== Proof.KRun.lean ====
/-
  The kernel program's run, read: its result.

  After the region the host sums the result column from zero and divides by 32768, sums psi from zero and divides by
  8192, and adds the two quotients. The column holds the row values, so the result is the loss of those rows:
  mean_R ((min_J cost R J) + |x_R|^2) + mean_J psi_J, in the arrangement that keeps the row constant out of the minimum.
-/
import proofs.«112644_j23965917512075_2_alg».proof.Proof.KFinal
import Idealize.ShloMosaic.Lib.StableHlo.Run
import Idealize.ShloMosaic.Lib.Pipeline.FrameSuffix

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.Semidual

variable (m : (ℓ : Loc nD τ sig) → Buf (Elt Ideal) ℓ) (ρ : Dev nD → PrngReg)

/-- A sum over a rank-1 index set is the sum over its coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The host's last steps as one function of the result column and psi: each summed from zero and divided by its
    count, the two quotients added. -/
def tail (col : FVec Ideal S32768x1 .f32) (psi : FVec Ideal S8192 .f32) : FVec Ideal S_ .f32 :=
  addf (Host.divf (F := Ideal) (Host.reduceAdd (F := Ideal) col (constant (F := Ideal) S_ .f32 0x00000000#32) reducesTo_S32768x1_S_d0_1 h_S_)
          (constant (F := Ideal) S_ .f32 0x47000000#32))
    (Host.divf (F := Ideal) (Host.reduceAdd (F := Ideal) psi (constant (F := Ideal) S_ .f32 0x00000000#32) reducesTo_S8192_S_d0 h_S_)
          (constant (F := Ideal) S_ .f32 0x46000000#32))

/-- The total of the result column is the sum of its 32768 row values. -/
theorem colsum_apply (col : FVec Ideal S32768x1 .f32) (i : S_.Idx) :
    Host.reduceAdd (F := Ideal) col (constant (F := Ideal) S_ .f32 0x00000000#32) reducesTo_S32768x1_S_d0_1 h_S_ i
      = ∑ R : Fin 32768, col (ix2 R (0 : Fin 1)) := by
  simp only [Host.reduceAdd, Ideal.hostReduceAdd_def]
  rw [Ideal.hostReduceAdd_total reducesTo_S32768x1_S_d0_1 (fun b => b.elim0)]
  refine (congrArg (· + _) (show (constant (F := Ideal) S_ .f32 0x00000000#32) (Shape.Idx.first h_S_) = 0 from Ideal.ofBits_zero_f32)).trans ?_
  rw [zero_add, sum_idx2]
  exact Finset.sum_congr rfl fun R _ => Fin.sum_univ_one _

/-- The total of psi is the sum of its 8192 entries. -/
theorem psisum_apply (psi : FVec Ideal S8192 .f32) (i : S_.Idx) :
    Host.reduceAdd (F := Ideal) psi (constant (F := Ideal) S_ .f32 0x00000000#32) reducesTo_S8192_S_d0 h_S_ i
      = ∑ j : Fin 8192, psi (ix1 j) := by
  simp only [Host.reduceAdd, Ideal.hostReduceAdd_def]
  rw [Ideal.hostReduceAdd_total reducesTo_S8192_S_d0 (fun b => b.elim0)]
  refine (congrArg (· + _) (show (constant (F := Ideal) S_ .f32 0x00000000#32) (Shape.Idx.first h_S_) = 0 from Ideal.ofBits_zero_f32)).trans ?_
  rw [zero_add, sum_idx1]

/-- So the tail is the loss of the column's row values. -/
theorem tail_apply (col : FVec Ideal S32768x1 .f32) (psi : FVec Ideal S8192 .f32) (i : S_.Idx) :
    tail col psi i = loss (fun R => col (ix2 R (0 : Fin 1))) psi := by
  unfold tail loss
  show Ideal.div (Host.reduceAdd (F := Ideal) col _ _ _ i) (Ideal.ofBits .f32 0x47000000#32)
      + Ideal.div (Host.reduceAdd (F := Ideal) psi _ _ _ i) (Ideal.ofBits .f32 0x46000000#32) = _
  rw [colsum_apply, psisum_apply]

/-- What the program leaves in its result buffer: the tail of the result column and psi. -/
theorem tail_eq (c : Dev nD) :
    Pipeline.afterTail₀ cfgs (dats m) 0 (V0 m) [hostOps1] c main_v9 = tail (rowsArr m c) (apsi m c) := by
  unfold Pipeline.afterTail₀
  show StableHlo.after hostOps1 _ (Proc.devRef .tc main_v9) = _
  after_results
  have e3 : Pipeline.withArrays (cfgs 0).spec c (V0 m c) (fun w => (dats m 0 c).arrAt w (cfgs 0).N)
      (Proc.devRef .tc main_v4) = rowsArr m c :=
    (Pipeline.withArrays_arr spec0 launch0.win.arr_inj c _ _ 3).trans (final m c)
  have e2 : Pipeline.withArrays (cfgs 0).spec c (V0 m c) (fun w => (dats m 0 c).arrAt w (cfgs 0).N)
      (Proc.devRef .tc main_arg2) = apsi m c :=
    (Pipeline.withArrays_of_ne _ c (V0 m c) _ main_arg2
      (by exact (by decide : ∀ w, Pipeline.arrRef spec0 w ≠ main_arg2))).trans (V_main_arg2 m c)
  rw [e3, e2]
  rfl

/-- The result as the loss of the rows' values. -/
theorem tail_loss (c : Dev nD) :
    tail (rowsArr m c) (apsi m c) = fun _ => loss (krow (ax m c) (ay m c) (apsi m c)) (apsi m c) := by
  funext i
  rw [tail_apply]
  rfl

/-- THE RUN, READ: every weakly fair execution of the program terminates with its result at the loss of the rows'
    values and its three arguments unchanged. -/
theorem run : θ_run defs (onTc (τ := τ) (main (F := Ideal))) ⟨m, fun _ => 0, ρ⟩ fun r => ∀ c : Dev nD,
      r.2.mem ((c.tc : Thread nD τ).loc main_v9) = (fun _ => loss (krow (ax m c) (ay m c) (apsi m c)) (apsi m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v9 (Pipeline.mem_restRefs_of main_v9 (by decide) (by decide))).trans ((tail_eq m c).trans (tail_loss m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KValue

end
-- ==== Proof.lean ====
/-
  The semi-dual transport loss, two ways.

  Both programs compute  mean_R min_j (|x_R - y_j|^2 - psi_j) + mean_j psi_j  for 32768 points x_R and 8192 points
  y_j in 64 dimensions. The reference expands the square for every pair, (|x_R|^2 + |y_j|^2) - 2 <x_R, y_j> - psi_j,
  and takes each row's minimum. The kernel prepares c_j = |y_j|^2 - psi_j on the host, sweeps the columns in eight
  tiles keeping a running minimum of <(-2) x_R, y_j> + c_j per row, adds the row constant |x_R|^2 once at the end, and
  lets the host take the two means.

  Over the extended reals the kernel's result is the loss of the rows (min_j (<(-2) x_R, y_j> + c_j)) + |x_R|^2 and
  the reference's the loss of the rows min_j of the expanded costs. The precondition makes every entry of the three
  arrays a real number, and on real entries the two rows agree: a real constant moves through a finite minimum, and
  entry by entry the two costs differ by exactly |x_R|^2, by distributing -2 over the inner product's sum. Both steps
  fail at infinite entries, so the precondition is used. The idealization rewrote nothing, so its conjunct is trivial.
-/
import proofs.«112644_j23965917512075_2_alg».proof.Defs
import proofs.«112644_j23965917512075_2_alg».proof.Proof.Gen.Kernel
import proofs.«112644_j23965917512075_2_alg».proof.Proof.Gen.Kernel.Frame
import proofs.«112644_j23965917512075_2_alg».proof.Proof.Gen.KernelIdeal
import proofs.«112644_j23965917512075_2_alg».proof.Proof.Gen.KernelIdeal.Frame
import proofs.«112644_j23965917512075_2_alg».proof.Proof.Gen.ReferenceIdeal
import proofs.«112644_j23965917512075_2_alg».proof.Proof.Gen.ReferenceIdeal.Run
import proofs.«112644_j23965917512075_2_alg».proof.Proof.Gen.ReferenceIdeal.Read
import proofs.«112644_j23965917512075_2_alg».proof.Proof.Gen.Pre_finite_inputs
import proofs.«112644_j23965917512075_2_alg».proof.Proof.Spec
import proofs.«112644_j23965917512075_2_alg».proof.Proof.Finite
import proofs.«112644_j23965917512075_2_alg».proof.Proof.RefSide
import proofs.«112644_j23965917512075_2_alg».proof.Proof.KRun
import Idealize.ShloMosaic.Adequacy
import Idealize.ShloMosaic.Init

noncomputable section

namespace Cert.Proof

open Idealize.ShloMosaic Idealize.SL.Sem

/-- The three programs run to the end without a fault and leave their arguments as they were. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals, from arguments that agree and are real, the two programs end with the same loss: the
    kernel's at the rows with the row constant kept out of the minimum, the reference's at the expanded rows, and on
    real entries those rows are equal. -/
theorem algebraic : Cert.algebraic_KernelIdeal_ReferenceIdeal := by
  intro m ρ m' ρ' hpre hagree
  refine ⟨fun c => fun _ => Cert.Semidual.loss
      (Cert.Semidual.krow (Cert.KernelIdeal.KValue.ax m c) (Cert.KernelIdeal.KValue.ay m c) (Cert.KernelIdeal.KValue.apsi m c))
      (Cert.KernelIdeal.KValue.apsi m c), Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefSide.reference_is_loss,
    (hagree c).1, (hagree c).2.1, (hagree c).2.2]
  obtain ⟨hx, hy, hp⟩ := Cert.Finite.entries_real _ _ _ (hpre c)
  funext _
  exact congrArg (fun rows => Cert.Semidual.loss rows _)
    (funext fun R => (Cert.Semidual.krow_eq_rrow _ _ _ hx hy hp R).symm)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
